-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x4096.size a
  hwx0_3 : ∀ i : grid0.Coords, EltTy.bits .f32 = 32 ∨ (Rect.block (s := S4096x4096) S1024x2048.size (cc0_transform_3 i) (hinb0_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Payloads.lean ====
/-
  The three values the kernel body stores, read at an index (p, q) of the 1024 × 2048 output block, on the extended
  reals. The cleared accumulator is 0. The accumulating store is the accumulator plus the block product
  Σ_k x[p, k] · w[q, k] over the 256 columns of the two loaded blocks: the matrix unit contracts the SECOND axis of
  both operands (a product with the transpose), the narrowing of the operands to bf16 is the identity on the extended
  reals, and the product is taken into a zero accumulator. The closing store adds the bias row's entry b[0, q].
-/
import proofs.«132565_j21251498180716_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Bridge.Payloads

open Cert.KernelIdeal Cert.KernelIdeal.Gen Idealize.ShloMosaic Idealize.ShloMosaic.ValueIdx

/-- The cleared accumulator holds 0 everywhere. -/
theorem cleared_apply (j : S1024x2048.Idx) : k0_pay1 (F := Ideal) j = 0 := by
  unfold k0_pay1
  show Ideal.ofBits .f32 0x00000000#32 = 0
  exact Ideal.ofBits_zero_f32

/-- The left operand's row at output (p, q) is p, whatever the contracted position. -/
theorem lhs_row (j : S1024x2048.Idx) (q : dot_S1024x256_S2048x256_S1024x2048_1_1_0_0_n_n.contr.Idx) : (dot_S1024x256_S2048x256_S1024x2048_1_1_0_0_n_n.lhsIdx j q 0).val = (j 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

/-- The right operand's row there is q: the contraction runs along the right operand's second axis too. -/
theorem rhs_row (j : S1024x2048.Idx) (q : dot_S1024x256_S2048x256_S1024x2048_1_1_0_0_n_n.contr.Idx) : (dot_S1024x256_S2048x256_S1024x2048_1_1_0_0_n_n.rhsIdx j q 0).val = (j 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- The left operand of the block product at output (p, q) and contracted position k is x[p, k]. -/
theorem lhs_at (j : S1024x2048.Idx) (k : Fin 256) :
    dot_S1024x256_S2048x256_S1024x2048_1_1_0_0_n_n.lhsIdx j ((contrEquiv1 dot_S1024x256_S2048x256_S1024x2048_1_1_0_0_n_n 256 rfl rfl).symm k) = ix2 (j 0) k := by
  funext a
  refine Fin.ext ?_
  match a with
  | ⟨0, _⟩ => exact lhs_row j _
  | ⟨1, _⟩ =>
    exact (dot_S1024x256_S2048x256_S1024x2048_1_1_0_0_n_n.lhsIdx_val_of_single rfl j _).trans (contrEquiv1_symm_val dot_S1024x256_S2048x256_S1024x2048_1_1_0_0_n_n 256 rfl rfl k)

/-- The right operand there is w[q, k]. -/
theorem rhs_at (j : S1024x2048.Idx) (k : Fin 256) :
    dot_S1024x256_S2048x256_S1024x2048_1_1_0_0_n_n.rhsIdx j ((contrEquiv1 dot_S1024x256_S2048x256_S1024x2048_1_1_0_0_n_n 256 rfl rfl).symm k) = ix2 (j 1) k := by
  funext a
  refine Fin.ext ?_
  match a with
  | ⟨0, _⟩ => exact rhs_row j _
  | ⟨1, _⟩ =>
    exact (dot_S1024x256_S2048x256_S1024x2048_1_1_0_0_n_n.rhsIdx_val_of_single rfl j _).trans (contrEquiv1_symm_val dot_S1024x256_S2048x256_S1024x2048_1_1_0_0_n_n 256 rfl rfl k)

/-- The accumulating store: the accumulator plus Σ_k x[p, k] · w[q, k]. -/
theorem accumulated_apply (x : Vec Ideal S1024x256 .f32) (w : Vec Ideal S2048x256 .f32) (acc : Vec Ideal S1024x2048 .f32)
    (j : S1024x2048.Idx) :
    k0_pay2 (F := Ideal) x w acc j = acc j + ∑ k : Fin 256, x (ix2 (j 0) k) * w (ix2 (j 1) k) := by
  unfold k0_pay2
  simp only [shapeCast_self]
  rw [addf_apply]
  refine congrArg (acc j + ·) ?_
  refine (Ideal.matmul_constant_zero_apply dot_S1024x256_S2048x256_S1024x2048_1_1_0_0_n_n none _ _ j).trans ?_
  rw [← Equiv.sum_comp (contrEquiv1 dot_S1024x256_S2048x256_S1024x2048_1_1_0_0_n_n 256 rfl rfl).symm]
  refine Finset.sum_congr rfl fun k _ => ?_
  rw [lhs_at, rhs_at]
  rfl

/-- The closing store: the accumulated value plus the bias row's entry in column q. -/
theorem biased_apply (v : Vec Ideal S1024x2048 .f32) (b : Vec Ideal S1x2048 .f32) (j : S1024x2048.Idx) :
    k0_pay3 (F := Ideal) v b j = v j + b (ix2 (0 : Fin 1) (j 1)) := by
  unfold k0_pay3
  simp only [shapeCast_self]
  rw [addf_apply]
  refine congrArg (v j + ·) ?_
  refine broadcastTo_apply b _ j (ix2 (0 : Fin 1) (j 1)) (fun a => ?_)
  match a with
  | ⟨0, _⟩ => show (0 : ℕ) = if (1 : ℕ) = 1 then 0 else _; rw [if_pos rfl]
  | ⟨1, _⟩ => show (j 1).val = if (2048 : ℕ) = 1 then 0 else (j 1).val; rw [if_neg (by decide)]

end Cert.Bridge.Payloads

end
-- ==== Proof.Fold.lean ====
/-
  The fold one run of sixteen grid points leaves in the output block, read at an index of the block, on the extended
  reals. A run starts at a point 16·r: there the block is cleared and the first block product added; each of the next
  fourteen points adds its block product to what the point before left; the sixteenth adds its block product and then
  the bias row. So after the run the block holds, at (p, q), the sum of the sixteen block products at (p, q) plus the
  bias entry of column q. Only associativity of addition and 0 + a = a are used.
-/
import proofs.«132565_j21251498180716_2_alg».proof.Proof.Gen.KernelIdeal.Value
import proofs.«132565_j21251498180716_2_alg».proof.Proof.Payloads

noncomputable section

open scoped BigOperators

namespace Cert.Bridge.Fold

open Cert.KernelIdeal Cert.KernelIdeal.Gen Cert.KernelIdeal.Value Idealize.ShloMosaic Idealize.ShloMosaic.TcCoe
open Idealize.SL.Sem Idealize.ShloMosaic.ValueIdx Cert.Bridge.Payloads

variable (m : (ℓ : Loc nD τ sig) → Buf (Elt Ideal) ℓ)

/-- The x, w and bias blocks the body sees at grid point n, as arrays of extended reals over the blocks' shapes. -/
abbrev xBlock (c : Dev nD) (n : ℕ) (h : n < cfg0.N) : Vec Ideal S1024x256 .f32 := iblk m c 0 ⟨n, h⟩
abbrev wBlock (c : Dev nD) (n : ℕ) (h : n < cfg0.N) : Vec Ideal S2048x256 .f32 := iblk m c 1 ⟨n, h⟩
abbrev biasBlock (c : Dev nD) (n : ℕ) (h : n < cfg0.N) : Vec Ideal S1x2048 .f32 := iblk m c 2 ⟨n, h⟩

/-- The block product of grid point n at (p, q): Σ_k of the point's x block at (p, k) times its w block at (q, k).
    (Defined for every natural n so that sums over a range of points need no bound; 0 past the grid.) -/
def blockProduct (c : Dev nD) (n : ℕ) (j : S1024x2048.Idx) : EReal :=
  if h : n < cfg0.N then ∑ k : Fin 256, xBlock m c n h (ix2 (j 0) k) * wBlock m c n h (ix2 (j 1) k) else 0

/-- The bias entry grid point n adds in column q. -/
def biasEntry (c : Dev nD) (n : ℕ) (j : S1024x2048.Idx) : EReal :=
  if h : n < cfg0.N then biasBlock m c n h (ix2 (0 : Fin 1) (j 1)) else 0

/-- The first point of a run leaves 0 plus its block product. -/
theorem reset_apply (c : Dev nD) (n : ℕ) (h : n < cfg0.N) (j : S1024x2048.Idx) :
    reset3 m c n h j = (fun _ => (0 : EReal)) j + blockProduct m c n j := by
  unfold reset3 blockProduct
  rw [dif_pos h]
  refine (accumulated_apply _ _ _ j).trans ?_
  rw [cleared_apply]

/-- A middle point of a run (neither first nor last of its sixteen) adds its block product. -/
theorem step_middle_apply (c : Dev nD) (n : ℕ) (h : n < cfg0.N) (h0 : ¬n % 16 = 0) (h1 : ¬n % 16 = 15)
    (acc : Vec Ideal S1024x2048 .f32) (j : S1024x2048.Idx) :
    step3 m c n h acc j = acc j + blockProduct m c n j := by
  unfold step3 blockProduct
  rw [if_pos ⟨h0, h1⟩, dif_pos h]
  exact accumulated_apply _ _ _ j

/-- The last point of a run adds its block product, then the bias entry. -/
theorem step_last_apply (c : Dev nD) (n : ℕ) (h : n < cfg0.N) (h0 : ¬n % 16 = 0) (h1 : n % 16 = 15)
    (acc : Vec Ideal S1024x2048 .f32) (j : S1024x2048.Idx) :
    step3 m c n h acc j = (acc j + blockProduct m c n j) + biasEntry m c n j := by
  unfold step3 blockProduct biasEntry
  rw [if_neg (fun hh => hh.2 h1), if_pos ⟨h0, h1⟩, dif_pos h, dif_pos h]
  refine (biased_apply _ _ j).trans ?_
  rw [accumulated_apply]

/-- After the whole run from point 16·r the block holds the sixteen block products' sum plus the bias entry. -/
theorem run_apply (c : Dev nD) (r : ℕ) (h : 16 * r + 15 < cfg0.N) (j : S1024x2048.Idx) :
    Pipeline.accAt (reset3 m c) (step3 m c) (16 * r) 15 h j
      = (∑ s ∈ Finset.range 16, blockProduct m c (16 * r + s) j) + biasEntry m c (16 * r + 15) j := by
  have h14 : 16 * r + 14 < cfg0.N := by omega
  have mid := Pipeline.accAt_add_apply (ι := S1024x2048.Idx) (β := EReal) (reset3 m c) (step3 m c)
    (fun _ => (0 : EReal)) (blockProduct m c) (16 * r) 14
    (fun hb i => reset_apply m c (16 * r) hb i)
    (fun n hn acc i hlo hhi => step_middle_apply m c n hn (by omega) (by omega) acc i)
    14 (Nat.le_refl 14) h14 j
  rw [Pipeline.accAt_succ, step_last_apply m c (16 * r + (14 + 1)) h (by omega) (by omega), mid, zero_add,
    ← Finset.sum_range_succ (fun s => blockProduct m c (16 * r + s) j) 15]

end Cert.Bridge.Fold

end
-- ==== Proof.Blocks.lean ====
/-
  The three input blocks the body sees at grid point t, read at an index, as entries of the argument arrays. The grid
  is 4 × 2 × 16, the last axis fastest: point t has row tile t / 32, column tile (t / 16) % 2 and contraction step
  t % 16. The x block at t is rows 1024·(t / 32) … of x and columns 256·(t % 16) …; the w block is rows
  2048·((t / 16) % 2) … of w and the same columns; the bias block is columns 2048·((t / 16) % 2) … of the bias written as
  one row (the bias vector is reshaped to 1 × 4096 before the kernel is launched, which moves no entry).
-/
import proofs.«132565_j21251498180716_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.Bridge.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The x window's block index at point t: (row tile, contraction step). -/
theorem x_block_index : ∀ t : Fin cfg0.N,
    win0_0.index t (0 : Fin 2) = t.val / 32 ∧ win0_0.index t (1 : Fin 2) = t.val % 16 :=
  (by decide +kernel : ∀ t : Fin grid0.N, _)

/-- The w window's block index at point t: (column tile, contraction step). -/
theorem w_block_index : ∀ t : Fin cfg0.N,
    win0_1.index t (0 : Fin 2) = t.val / 16 % 2 ∧ win0_1.index t (1 : Fin 2) = t.val % 16 :=
  (by decide +kernel : ∀ t : Fin grid0.N, _)

/-- The bias window's block index at point t: (0, column tile). -/
theorem bias_block_index : ∀ t : Fin cfg0.N,
    win0_2.index t (0 : Fin 2) = 0 ∧ win0_2.index t (1 : Fin 2) = t.val / 16 % 2 :=
  (by decide +kernel : ∀ t : Fin grid0.N, _)

/-- Entry (p, k) of the x block at point t is x[1024·(t / 32) + p, 256·(t % 16) + k]. -/
theorem x_block_apply (c : Dev nD) (t : Fin cfg0.N) (p : Fin 1024) (k : Fin 256) (i : S4096x4096.Idx)
    (h0 : (i 0).val = 1024 * (t.val / 32) + p.val) (h1 : (i 1).val = 256 * (t.val % 16) + k.val) :
    (iblk m c 0 t : Vec F S1024x256 .f32) (ix2 p k) = m ((c : Thread nD τ).loc main_arg0) i := by
  unfold iblk
  rw [View.read_apply]
  show V m c main_arg0 _ = _
  rw [V_main_arg0]
  refine congrArg _ (funext fun a => Fin.ext ?_)
  obtain ⟨e0, e1⟩ := x_block_index t
  match a with
  | ⟨0, _⟩ => show win0_0.index t (0 : Fin 2) * 1024 + 1 * p.val = (i 0).val; rw [e0, h0]; omega
  | ⟨1, _⟩ => show win0_0.index t (1 : Fin 2) * 256 + 1 * k.val = (i 1).val; rw [e1, h1]; omega

/-- Entry (q, k) of the w block at point t is w[2048·((t / 16) % 2) + q, 256·(t % 16) + k]. -/
theorem w_block_apply (c : Dev nD) (t : Fin cfg0.N) (q : Fin 2048) (k : Fin 256) (i : S4096x4096.Idx)
    (h0 : (i 0).val = 2048 * (t.val / 16 % 2) + q.val) (h1 : (i 1).val = 256 * (t.val % 16) + k.val) :
    (iblk m c 1 t : Vec F S2048x256 .f32) (ix2 q k) = m ((c : Thread nD τ).loc main_arg1) i := by
  unfold iblk
  rw [View.read_apply]
  show V m c main_arg1 _ = _
  rw [V_main_arg1]
  refine congrArg _ (funext fun a => Fin.ext ?_)
  obtain ⟨e0, e1⟩ := w_block_index t
  match a with
  | ⟨0, _⟩ => show win0_1.index t (0 : Fin 2) * 2048 + 1 * q.val = (i 0).val; rw [e0, h0]; omega
  | ⟨1, _⟩ => show win0_1.index t (1 : Fin 2) * 256 + 1 * k.val = (i 1).val; rw [e1, h1]; omega

/-- The array the bias window stages is the bias vector written as one row. -/
theorem bias_row_eq (c : Dev nD) :
    (V m c main_v0 : S1x4096.Idx → Elt F .f32)
      = shapeCast S1x4096 (m ((c : Thread nD τ).loc main_arg2)) shapeCasts_S4096_S1x4096 := by
  dsimp only [V, hostOps0]
  after_results
  rfl

/-- Entry (0, q) of the bias block at point t is bias[2048·((t / 16) % 2) + q]. -/
theorem bias_block_apply (c : Dev nD) (t : Fin cfg0.N) (q : Fin 2048) (i : Fin 4096)
    (h : i.val = 2048 * (t.val / 16 % 2) + q.val) :
    (iblk m c 2 t : Vec F S1x2048 .f32) (ix2 (0 : Fin 1) q) = m ((c : Thread nD τ).loc main_arg2) (ix1 i) := by
  unfold iblk
  rw [View.read_apply]
  show V m c main_v0 _ = _
  rw [bias_row_eq]
  refine Eq.trans ?_
    (shapeCast_a_1a_apply (m ((c : Thread nD τ).loc main_arg2)) shapeCasts_S4096_S1x4096 (0 : Fin 1) i)
  refine congrArg _ (funext fun a => Fin.ext ?_)
  obtain ⟨e0, e1⟩ := bias_block_index t
  match a with
  | ⟨0, _⟩ => show win0_2.index t (0 : Fin 2) * 1 + 1 * 0 = 0; rw [e0]
  | ⟨1, _⟩ => show win0_2.index t (1 : Fin 2) * 2048 + 1 * q.val = i.val; rw [e1, h]; omega

end Cert.Bridge.Blocks

end
-- ==== Proof.BlockSum.lean ====
/-
  A finite sum taken block by block. The first T·B terms of a sequence, added T at a time and then block over
  block, are the same sum: addition in a commutative monoid is associative, so only the grouping differs. This is
  the one algebraic law between a contraction accumulated over blocks of the contracted axis and the contraction
  taken whole; it needs no finiteness, so it holds on the extended reals as it stands.
-/
import Mathlib.Algebra.BigOperators.Fin
import Mathlib.Algebra.BigOperators.Intervals

open scoped BigOperators

namespace Cert.Bridge.BlockSum

variable {α : Type*} [AddCommMonoid α]

/-- The terms below `T * B`, summed `T` at a time: block `s` holds the terms `T·s, …, T·s + T − 1`. -/
theorem sum_range_by_blocks (T : ℕ) (f : ℕ → α) : ∀ B : ℕ,
    ∑ s ∈ Finset.range B, ∑ k ∈ Finset.range T, f (T * s + k) = ∑ k ∈ Finset.range (T * B), f k
  | 0 => by simp
  | B + 1 => by
    rw [Finset.sum_range_succ, sum_range_by_blocks T f B, Nat.mul_succ, Finset.sum_range_add]

/-- The same law with the position inside a block, and the position in the whole, as bounded indices. -/
theorem sum_fin_by_blocks (T B : ℕ) (f : ℕ → α) :
    ∑ s ∈ Finset.range B, ∑ k : Fin T, f (T * s + k.val) = ∑ k : Fin (T * B), f k.val :=
  calc ∑ s ∈ Finset.range B, ∑ k : Fin T, f (T * s + k.val)
      = ∑ s ∈ Finset.range B, ∑ k ∈ Finset.range T, f (T * s + k) :=
        Finset.sum_congr rfl fun s _ => (Finset.sum_range fun k => f (T * s + k)).symm
    _ = ∑ k ∈ Finset.range (T * B), f k := sum_range_by_blocks T f B
    _ = ∑ k : Fin (T * B), f k.val := Finset.sum_range f

/-- Sixteen blocks of 256 make the 4096 terms of the whole contraction. -/
theorem sum_16_blocks_of_256 (f : ℕ → α) :
    ∑ s ∈ Finset.range 16, ∑ k : Fin 256, f (256 * s + k.val) = ∑ k : Fin 4096, f k.val :=
  sum_fin_by_blocks 256 16 f

end Cert.Bridge.BlockSum
-- ==== Proof.Entries.lean ====
/-
  The kernel's result and the reference's result, entry by entry, are one number on the extended reals:
      out[a, b] = Σ_{κ < 4096} x[a, κ] · w[b, κ] + bias[b].
  Kernel side: entry (a, b) lies in the output block of row tile a / 1024 and column tile b / 2048, at place
  (a % 1024, b % 2048); that block is filled by the run of sixteen grid points starting at
  16 · (2·(a / 1024) + b / 2048); step s of the run contributes Σ_{k < 256} x[a, 256·s + k] · w[b, 256·s + k], and
  the sixteen contributions are the 4096 terms of the whole contraction taken 256 at a time; the last step adds bias[b].
  Reference side: the contraction over the second axis of both operands, plus the bias broadcast along rows.
-/
import proofs.«132565_j21251498180716_2_alg».proof.Proof.Fold
import proofs.«132565_j21251498180716_2_alg».proof.Proof.Blocks
import proofs.«132565_j21251498180716_2_alg».proof.Proof.BlockSum
import proofs.«132565_j21251498180716_2_alg».proof.Proof.Gen.ReferenceIdeal.Read

noncomputable section

open scoped BigOperators

namespace Cert.Bridge.Entries

open Cert.KernelIdeal Cert.KernelIdeal.Gen Cert.KernelIdeal.Value Idealize.ShloMosaic Idealize.ShloMosaic.TcCoe
open Idealize.SL.Sem Idealize.ShloMosaic.ValueIdx Cert.Bridge.Fold Cert.Bridge.Blocks Cert.Bridge.BlockSum

variable (m : (ℓ : Loc nD τ sig) → Buf (Elt Ideal) ℓ)

/-- The argument arrays x, w and bias of device c, as arrays of extended reals over their shapes. -/
abbrev xArr (c : Dev nD) : Vec Ideal S4096x4096 .f32 := m ((c : Thread nD τ).loc main_arg0)
abbrev wArr (c : Dev nD) : Vec Ideal S4096x4096 .f32 := m ((c : Thread nD τ).loc main_arg1)
abbrev biasArr (c : Dev nD) : Vec Ideal S4096 .f32 := m ((c : Thread nD τ).loc main_arg2)

/-- The terms of the contraction for entry (a, b), as a sequence: x[a, κ] · w[b, κ] (0 past the contracted extent). -/
def products (c : Dev nD) (a b : Fin 4096) (κ : ℕ) : EReal :=
  if h : κ < 4096 then
    xArr m c (ix2 a ⟨κ, h⟩)
      * wArr m c (ix2 b ⟨κ, h⟩)
  else 0

/-- Step s of the run that fills entry (a, b)'s block contributes the terms 256·s … 256·s + 255 of the contraction. -/
theorem blockProduct_eq (c : Dev nD) (a b : Fin 4096) (s : ℕ) (hs : s < 16) (j : S1024x2048.Idx)
    (hj0 : (j 0).val = a.val % 1024) (hj1 : (j 1).val = b.val % 2048) :
    blockProduct m c (16 * (2 * (a.val / 1024) + b.val / 2048) + s) j
      = ∑ k : Fin 256, products m c a b (256 * s + k.val) := by
  have hN : cfg0.N = 128 := N_0
  have ha := a.isLt
  have hb := b.isLt
  have hn : 16 * (2 * (a.val / 1024) + b.val / 2048) + s < cfg0.N := by omega
  unfold blockProduct
  rw [dif_pos hn]
  refine Finset.sum_congr rfl fun k _ => ?_
  have hk := k.isLt
  have hκ : 256 * s + k.val < 4096 := by omega
  unfold products
  rw [dif_pos hκ]
  refine congrArg₂ (· * ·) ?_ ?_
  · refine x_block_apply m c ⟨_, hn⟩ (j 0) k (ix2 a ⟨256 * s + k.val, hκ⟩) ?_ ?_
    · show a.val = 1024 * ((16 * (2 * (a.val / 1024) + b.val / 2048) + s) / 32) + (j 0).val
      omega
    · show 256 * s + k.val = 256 * ((16 * (2 * (a.val / 1024) + b.val / 2048) + s) % 16) + k.val
      omega
  · refine w_block_apply m c ⟨_, hn⟩ (j 1) k (ix2 b ⟨256 * s + k.val, hκ⟩) ?_ ?_
    · show b.val = 2048 * ((16 * (2 * (a.val / 1024) + b.val / 2048) + s) / 16 % 2) + (j 1).val
      omega
    · show 256 * s + k.val = 256 * ((16 * (2 * (a.val / 1024) + b.val / 2048) + s) % 16) + k.val
      omega

/-- The last step of that run adds bias[b]. -/
theorem biasEntry_eq (c : Dev nD) (a b : Fin 4096) (j : S1024x2048.Idx) (hj1 : (j 1).val = b.val % 2048) :
    biasEntry m c (16 * (2 * (a.val / 1024) + b.val / 2048) + 15) j
      = biasArr m c (ix1 b) := by
  have hN : cfg0.N = 128 := N_0
  have ha := a.isLt
  have hb := b.isLt
  have hn : 16 * (2 * (a.val / 1024) + b.val / 2048) + 15 < cfg0.N := by omega
  unfold biasEntry
  rw [dif_pos hn]
  refine bias_block_apply m c ⟨_, hn⟩ (j 1) b ?_
  show b.val = 2048 * ((16 * (2 * (a.val / 1024) + b.val / 2048) + 15) / 16 % 2) + (j 1).val
  omega

/-- The array the kernel leaves, at (a, b): the whole contraction plus the bias entry. -/
theorem kernel_entry (c : Dev nD) (a b : Fin 4096) :
    G3 m c (ix2 a b)
      = (∑ k : Fin 4096, xArr m c (ix2 a k)
          * wArr m c (ix2 b k))
        + biasArr m c (ix1 b) := by
  have hN : cfg0.N = 128 := N_0
  have ha := a.isLt
  have hb := b.isLt
  have hr : run3Of (ix2 a b) = 2 * (a.val / 1024) + b.val / 2048 := by
    show 2 * (a.val / 1024 - 0) + 1 * (b.val / 2048 - 0) = _
    omega
  have key : ∀ (r : ℕ) (_ : r = 2 * (a.val / 1024) + b.val / 2048) (h : 16 * r + 15 < cfg0.N),
      Pipeline.accAt (reset3 m c) (step3 m c) (16 * r) 15 h (loc3Of (ix2 a b))
        = (∑ k : Fin 4096, xArr m c (ix2 a k)
            * wArr m c (ix2 b k))
          + biasArr m c (ix1 b) := by
    intro r er h
    subst er
    rw [run_apply, biasEntry_eq m c a b (loc3Of (ix2 a b)) rfl,
      Finset.sum_congr rfl (fun s hs => blockProduct_eq m c a b s (Finset.mem_range.mp hs) (loc3Of (ix2 a b)) rfl rfl),
      sum_16_blocks_of_256 (products m c a b)]
    refine congrArg (· + _) (Finset.sum_congr rfl fun k _ => ?_)
    unfold products
    rw [dif_pos k.isLt]
  unfold G3
  rw [dif_pos (by rw [hr]; omega)]
  exact key _ hr _

/-- The reference's result at (a, b): the contraction over both operands' second axis, plus the bias entry. -/
theorem reference_entry (x0 x1 : Vec Ideal Cert.ReferenceIdeal.S4096x4096 .f32) (x2 : Vec Ideal Cert.ReferenceIdeal.S4096 .f32) (a b : Fin 4096) :
    Cert.ReferenceIdeal.Read.val_main_v3 (F := Ideal) x0 x1 x2 (ix2 a b)
      = (∑ k : Fin 4096, x0 (ix2 a k) * x1 (ix2 b k)) + x2 (ix1 b) := by
  have el : ∀ k : Fin 4096, Cert.ReferenceIdeal.Read.lidx_main_v0 (ix2 a b) k = ix2 a k := fun k =>
    funext fun d => by match d with | ⟨0, _⟩ => rfl | ⟨1, _⟩ => rfl
  have er : ∀ k : Fin 4096, Cert.ReferenceIdeal.Read.ridx_main_v0 (ix2 a b) k = ix2 b k := fun k =>
    funext fun d => by match d with | ⟨0, _⟩ => rfl | ⟨1, _⟩ => rfl
  have eb : Cert.ReferenceIdeal.Read.idx_main_v1 (Cert.ReferenceIdeal.Read.idx_main_v2 (ix2 a b)) = ix1 b :=
    funext fun d => by match d with | ⟨0, _⟩ => rfl
  rw [Cert.ReferenceIdeal.Read.val_main_v3_apply, Cert.ReferenceIdeal.Read.val_main_v0_apply, Cert.ReferenceIdeal.Read.val_main_v2_apply,
    Cert.ReferenceIdeal.Read.val_main_v1_apply, eb]
  refine congrArg (· + _) (Finset.sum_congr rfl fun k _ => ?_)
  rw [el, er]

/-- The reference's result array is the array the kernel leaves, when both start from the same x, w and bias. -/
theorem result_eq (c : Dev nD) :
    Cert.ReferenceIdeal.Read.val_main_v3 (F := Ideal) (m ((c : Thread nD τ).loc main_arg0)) (m ((c : Thread nD τ).loc main_arg1))
        (m ((c : Thread nD τ).loc main_arg2))
      = G3 m c := by
  funext i
  obtain ⟨a, b, rfl⟩ : ∃ (a b : Fin 4096), i = ix2 a b := ⟨i 0, i 1, eq_ix2 i⟩
  rw [kernel_entry]
  exact reference_entry _ _ _ a b

end Cert.Bridge.Entries

end
-- ==== Proof.lean ====
/-
  A tiled matrix product with bias against its one-line reference, over f32[4096, 4096]:
      out = x · wᵀ + bias,      out[a, b] = Σ_{κ < 4096} x[a, κ] · w[b, κ] + bias[b].
  The kernel walks a 4 × 2 × 16 grid. Each 1024 × 2048 output block stays in place over the sixteen steps of the
  contracted axis: the first step clears it, every step adds the product of a 1024 × 256 block of x with the transpose
  of a 2048 × 256 block of w (the operands narrowed to bf16, which is the identity on the extended reals), and the last
  step adds the bias row. The reference contracts the second axis of both operands at once and adds the bias broadcast
  along rows. On the extended reals the two agree entry by entry: sixteen partial sums of 256 terms are the one sum of
  4096 terms, by associativity of addition alone — no entry needs to be finite, so the precondition is not opened.
  The idealization changed nothing the claim must account for, so the kernel's two printings are related trivially;
  the three programs terminate without fault and leave their arguments unchanged by their runs.
-/
import proofs.«132565_j21251498180716_2_alg».proof.Defs
import proofs.«132565_j21251498180716_2_alg».proof.Proof.Gen.Kernel.Frame
import proofs.«132565_j21251498180716_2_alg».proof.Proof.Gen.KernelIdeal.Value
import proofs.«132565_j21251498180716_2_alg».proof.Proof.Gen.Pre_finite_inputs
import proofs.«132565_j21251498180716_2_alg».proof.Proof.Gen.ReferenceIdeal.Run
import proofs.«132565_j21251498180716_2_alg».proof.Proof.Entries
import Idealize.ShloMosaic.Adequacy
import Idealize.ShloMosaic.Init

noncomputable section

namespace Cert.Proof

open Idealize.ShloMosaic Idealize.SL.Sem

/-- The idealized kernel terminates without fault and leaves x, w and bias as they were: its run, the result dropped. -/
theorem frame_KernelIdeal : frame_KernelIdeal := fun m ρ _ =>
  (θ_run Cert.KernelIdeal.defs _ _).mono (fun _ h c => (h c).2) (Cert.KernelIdeal.Value.run (F := Ideal) m ρ)

/-- So does the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, w and bias both programs end, the kernel's output array holding the folds of its
    sixteen-step runs and the reference's the contraction plus the broadcast bias: one array, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v3_eq (F := Ideal) _ _ _).trans (Cert.Bridge.Entries.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
